-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x4096x1024 .f32) (main_arg6 : FVec F S8x1024 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x4096x1024 .f32 := Host.absf main_arg5
  let main_cst_6 : FVec F S_ .f32 := constant S_ .f32 0x7F800000#32
  let main_v20 : FVec F S8x4096x1024 .f32 := broadcastInDim S8x4096x1024 ![] bcast_S_S8x4096x1024 main_cst_6
  let main_v21 : IVec S8x4096x1024 1 := cmpf .olt main_v19 main_v20
  let main_c_7 : IVec S_ 1 := constantI S_ 1 1#1
  let main_v22 : IVec S_ 1 := (fun x v => Host.reduce IntOp.andi x v reducesTo_S8x4096x1024_S_d0_1_2 h_S_) main_v21 main_c_7
  let main_v23 : IVec S_ 1 := andi main_v18 main_v22
  let main_v24 : FVec F S8x1024 .f32 := Host.absf main_arg6
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  main_v28

def fn {F : FTy → Type} [FloatOps F] (main_arg0 : FVec F S16384x1024 .f32) (main_arg1 : IVec S8 32) (main_arg2 : FVec F S8x1024x4096 .f32) (main_arg3 : FVec F S8x1024x4096 .f32) (main_arg4 : FVec F S8x4096 .f32) (main_arg5 : FVec F S8x4096x1024 .f32) (main_arg6 : FVec F S8x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg5 main_arg6 main_v13 main_v16
-- ==== Kernel.lean ====
abbrev S16384x1024 : Shape := ⟨2, ![16384, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8x2048x1024 : Shape := ⟨3, ![8, 2048, 1024]⟩
abbrev S8x1x4096 : Shape := ⟨3, ![8, 1, 4096]⟩
abbrev S8x1x1024 : Shape := ⟨3, ![8, 1, 1024]⟩
abbrev S1x128x1024 : Shape := ⟨3, ![1, 128, 1024]⟩
abbrev S1x1024x4096 : Shape := ⟨3, ![1, 1024, 4096]⟩
abbrev S1x1x4096 : Shape := ⟨3, ![1, 1, 4096]⟩
abbrev S1x4096x1024 : Shape := ⟨3, ![1, 4096, 1024]⟩
abbrev S1x1x1024 : Shape := ⟨3, ![1, 1, 1024]⟩
abbrev S128x1024 : Shape := ⟨2, ![128, 1024]⟩
abbrev S1024x4096 : Shape := ⟨2, ![1024, 4096]⟩
abbrev S128x4096 : Shape := ⟨2, ![128, 4096]⟩
abbrev S1x4096 : Shape := ⟨2, ![1, 4096]⟩
abbrev S4096x1024 : Shape := ⟨2, ![4096, 1024]⟩
abbrev S1x1024 : Shape := ⟨2, ![1, 1024]⟩

abbrev nBuf : Space → Nat
  | .hbm => 15
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S8, .i32⟩
  | .hbm, ⟨2, _⟩ => ⟨S8x1024x4096, .f32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S8x2048x1024, .f32⟩
  | .hbm, ⟨8, _⟩ => ⟨S8x1024x4096, .bf16⟩
  | .hbm, ⟨9, _⟩ => ⟨S8x1024x4096, .bf16⟩
  | .hbm, ⟨10, _⟩ => ⟨S8x4096x1024, .bf16⟩
  | .hbm, ⟨11, _⟩ => ⟨S8x1x4096, .f32⟩
  | .hbm, ⟨12, _⟩ => ⟨S8x1x1024, .f32⟩
  | .hbm, ⟨13, _⟩ => ⟨S8x2048x1024, .f32⟩
  | .hbm, ⟨14, _⟩ => ⟨S16384x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x4096, .bf16⟩
  | .local _ .vmem, ⟨3, _⟩ => ⟨S1x1024x4096, .bf16⟩
  | .local _ .vmem, ⟨4, _⟩ => ⟨S1x1x4096, .f32⟩
  | .local _ .vmem, ⟨5, _⟩ => ⟨S1x4096x1024, .bf16⟩
  | .local _ .vmem, ⟨6, _⟩ => ⟨S1x1x1024, .f32⟩
  | .local _ .vmem, ⟨7, _⟩ => ⟨S1x128x1024, .f32⟩
  | .local _ .vmem, ⟨8, _⟩ => ⟨S1x128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16384x1024_S8x2048x1024 : S16384x1024.ShapeCasts S8x2048x1024
  bitsLt_bf16_f32 : FTy.bits .bf16 < FTy.bits .f32
  shapeCasts_S8x4096_S8x1x4096 : S8x4096.ShapeCasts S8x1x4096
  shapeCasts_S8x1024_S8x1x1024 : S8x1024.ShapeCasts S8x1x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S128x4096 : S1x4096.Broadcasts S128x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S128x1024 : S1x1024.Broadcasts S128x1024
  shapeCasts_S128x1024_S1x128x1024 : S128x1024.ShapeCasts S1x128x1024
  shapeCasts_S8x2048x1024_S16384x1024 : S8x2048x1024.ShapeCasts S16384x1024
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x2048x1024.size a
  hwx0_0 : ∀ i : grid0.Coords, EltTy.bits .f32 = 32 ∨ (Rect.block (s := S8x2048x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x4096.size a ≤ S8x1024x4096.size a
  hwx0_2 : ∀ i : grid0.Coords, EltTy.bits .bf16 = 32 ∨ (Rect.block (s := S8x1024x4096) S1x1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096x1024.size a ≤ S8x4096x1024.size a
  hwx0_4 : ∀ i : grid0.Coords, EltTy.bits .bf16 = 32 ∨ (Rect.block (s := S8x4096x1024) S1x4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1024.size a ≤ S8x2048x1024.size a
  hwx0_6 : ∀ i : grid0.Coords, EltTy.bits .f32 = 32 ∨ (Rect.block (s := S8x2048x1024) S1x128x1024.size (cc0_transform_6 i) (hinb0_6 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8x2048x1024 : Shape := ⟨3, ![8, 2048, 1024]⟩
abbrev S8x2048x4096 : Shape := ⟨3, ![8, 2048, 4096]⟩
abbrev S_ : Shape := ⟨0, ![]⟩
abbrev S8x1x4096 : Shape := ⟨3, ![8, 1, 4096]⟩
abbrev S8x1x1024 : Shape := ⟨3, ![8, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8, .i32⟩
  | .hbm, ⟨2, _⟩ => ⟨S8x1024x4096, .f32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S8x2048x1024, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x4096, .f32⟩
  | .hbm, ⟨27, _⟩ => ⟨S8x1x4096, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | .hbm, ⟨31, _⟩ => ⟨S8x2048x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  shapeCasts_S16384x1024_S8x2048x1024 : S16384x1024.ShapeCasts S8x2048x1024
  bcast_S_S8x2048x4096 : S_.BroadcastsInDim S8x2048x4096 (![] : Fin 0 → Fin S8x2048x4096.rank)
  bcast_S8x4096_S8x1x4096_0_2 : S8x4096.BroadcastsInDim S8x1x4096 (![0, 2] : Fin 2 → Fin S8x1x4096.rank)
  bcast_S8x1x4096_S8x2048x4096_0_1_2 : S8x1x4096.BroadcastsInDim S8x2048x4096 (![0, 1, 2] : Fin 3 → Fin S8x2048x4096.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  shapeCasts_S8x2048x1024_S16384x1024 : S8x2048x1024.ShapeCasts S16384x1024
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.FfnSpec.lean ====
/-
  One expert's gated feed-forward block over the extended reals.

  For a token row `x` (length 1024) routed to an expert with gate weights `wg`, linear weights `wl` and bias `bl`
  (hidden width 4096) and output weights `wo`, bias `bo`, the block's output at one output column is

      (∑ₕ gelu (∑ₖ xₖ · wgₖₕ) · ((∑ₖ xₖ · wlₖₕ) + blₕ) · woₕ) + bo,

  with `gelu` the tanh approximation `g · (1/2 · (1 + tanh (c₁ · (g + c₀ · g³))))`, its four constants kept as the
  binary words both programs print. Token row `r` of expert `e` is row `e · 2048 + r` of the token matrix: the tokens
  arrive sorted by expert, 2048 to each of the 8 experts.
-/
import Idealize.ShloMosaic.PureOps.Ideal
import Idealize.ShloMosaic.Lib.ValueIdx

noncomputable section

namespace Cert.ExpertFfn

open Idealize.ShloMosaic Idealize.ShloMosaic.ValueIdx

/-- The tanh approximation of GELU, the cube written `g · (g · g)`. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g))))))

/-- The same with the cube written `(g · g) · g`: the product of extended reals commutes. -/
theorem gelu_cube_left (g : EReal) :
    g * (Ideal.ofBits .f32 0x3F000000#32 * (Ideal.ofBits .f32 0x3F800000#32
      + Ideal.tanh (Ideal.ofBits .f32 0x3F4C422A#32 * (g + Ideal.ofBits .f32 0x3D372713#32 * (g * g * g))))) = gelu g := by
  unfold gelu
  rw [mul_comm (g * g) g]

/-- The block's output at one output column: `x` the token row, `wg`, `wl`, `bl` the two hidden projections and the
    linear one's bias, `wo` the output weights' column, `bo` the output bias there. -/
def ffn {ι κ : Type} [Fintype ι] [Fintype κ] (x : ι → EReal) (wg wl : ι → κ → EReal) (bl : κ → EReal)
    (wo : κ → EReal) (bo : EReal) : EReal :=
  (∑ h : κ, gelu (∑ k : ι, x k * wg k h) * ((∑ k : ι, x k * wl k h) + bl h) * wo h) + bo

/-- Row `r` of expert `e` in the token matrix. -/
def tokenRow (e : Fin 8) (r : Fin 2048) : Fin 16384 := ⟨e.val * 2048 + r.val, by omega⟩

/-- The output for token row `r` of expert `e` at column `d`, from the seven argument arrays (the integer one unused):
    tokens [16384, 1024], gate and linear weights [8, 1024, 4096], linear bias [8, 4096], output weights
    [8, 4096, 1024], output bias [8, 1024]. -/
def expertOut (a0 : (⟨2, ![16384, 1024]⟩ : Shape).Idx → EReal) (a2 a3 : (⟨3, ![8, 1024, 4096]⟩ : Shape).Idx → EReal)
    (a4 : (⟨2, ![8, 4096]⟩ : Shape).Idx → EReal) (a5 : (⟨3, ![8, 4096, 1024]⟩ : Shape).Idx → EReal)
    (a6 : (⟨2, ![8, 1024]⟩ : Shape).Idx → EReal) (e : Fin 8) (r : Fin 2048) (d : Fin 1024) : EReal :=
  ffn (fun k : Fin 1024 => a0 (ix2 (tokenRow e r) k)) (fun (k : Fin 1024) (h : Fin 4096) => a2 (ix3 e k h))
    (fun (k : Fin 1024) (h : Fin 4096) => a3 (ix3 e k h)) (fun h : Fin 4096 => a4 (ix2 e h))
    (fun h : Fin 4096 => a5 (ix3 e h d)) (a6 (ix2 e d))

/-- All of them as one array [8, 2048, 1024]. -/
def expertArr (a0 : (⟨2, ![16384, 1024]⟩ : Shape).Idx → EReal) (a2 a3 : (⟨3, ![8, 1024, 4096]⟩ : Shape).Idx → EReal)
    (a4 : (⟨2, ![8, 4096]⟩ : Shape).Idx → EReal) (a5 : (⟨3, ![8, 4096, 1024]⟩ : Shape).Idx → EReal)
    (a6 : (⟨2, ![8, 1024]⟩ : Shape).Idx → EReal) : (⟨3, ![8, 2048, 1024]⟩ : Shape).Idx → EReal :=
  fun i => expertOut a0 a2 a3 a4 a5 a6 (i 0) (i 1) (i 2)

theorem expertArr_ix3 (a0 : (⟨2, ![16384, 1024]⟩ : Shape).Idx → EReal) (a2 a3 : (⟨3, ![8, 1024, 4096]⟩ : Shape).Idx → EReal)
    (a4 : (⟨2, ![8, 4096]⟩ : Shape).Idx → EReal) (a5 : (⟨3, ![8, 4096, 1024]⟩ : Shape).Idx → EReal)
    (a6 : (⟨2, ![8, 1024]⟩ : Shape).Idx → EReal) (e : Fin 8) (r : Fin 2048) (d : Fin 1024) :
    expertArr a0 a2 a3 a4 a5 a6 (ix3 e r d) = expertOut a0 a2 a3 a4 a5 a6 e r d := rfl

end Cert.ExpertFfn

end
-- ==== Proof.RefIsSpec.lean ====
/-
  The reference, read at an index, is the expert block of FfnSpec.

  Its result before the final reshape is the [8, 2048, 1024] array whose entry (e, r, d) is: the batched product of
  the tokens of expert e with the expert's gate weights, passed through the tanh GELU (its cube grouped to the left),
  times the batched product with the linear weights plus the linear bias, contracted with the expert's output weights
  over the hidden axis, plus the output bias. Each batched product read at an index is a sum over the contracted axis;
  the reshape of the token matrix to [8, 2048, 1024] reads row e · 2048 + r.
-/
import proofs.«127453_j70033736728817_2_alg».proof.Proof.Gen.ReferenceIdeal.Read
import proofs.«127453_j70033736728817_2_alg».proof.Proof.FfnSpec

noncomputable section

namespace Cert.ExpertFfn.Ref

open Cert.ReferenceIdeal Cert.ReferenceIdeal.Gen Cert.ReferenceIdeal.Read Idealize.ShloMosaic Idealize.ShloMosaic.ValueIdx
open Cert.ExpertFfn

variable (x0 : (⟨S16384x1024, .f32⟩ : BufTy).Contents (Elt Ideal)) (x2 x3 : (⟨S8x1024x4096, .f32⟩ : BufTy).Contents (Elt Ideal))
  (x4 : (⟨S8x4096, .f32⟩ : BufTy).Contents (Elt Ideal)) (x5 : (⟨S8x4096x1024, .f32⟩ : BufTy).Contents (Elt Ideal))
  (x6 : (⟨S8x1024, .f32⟩ : BufTy).Contents (Elt Ideal))

/-- The reshaped token matrix at (e, r, k) is the token matrix at row e · 2048 + r, column k. -/
theorem tokens_at (e : Fin 8) (r : Fin 2048) (k : Fin 1024) :
    val_main_v0 (F := Ideal) x0 (ix3 e r k) = x0 (ix2 (tokenRow e r) k) := by
  rw [val_main_v0_apply]
  refine congrArg x0 (funext fun a => Fin.ext ?_)
  have he := e.isLt; have hr := r.isLt; have hk := k.isLt
  match a with
  | ⟨0, _⟩ => show ((e.val * 2048 + r.val) * 1024 + k.val) / 1024 = e.val * 2048 + r.val; omega
  | ⟨1, _⟩ => show ((e.val * 2048 + r.val) * 1024 + k.val) % 1024 = k.val; omega

/-- The gate projection at (e, r, h): the token row against column h of the expert's gate weights. -/
theorem gate_at (e : Fin 8) (r : Fin 2048) (h : Fin 4096) :
    val_main_v1 (F := Ideal) x0 x2 (ix3 e r h) = ∑ k : Fin 1024, x0 (ix2 (tokenRow e r) k) * x2 (ix3 e k h) := by
  rw [val_main_v1_apply]
  refine Finset.sum_congr rfl fun k _ => ?_
  have e1 : lidx_main_v1 (ix3 e r h) k = ix3 e r k :=
    funext fun a => Fin.ext (by match a with | ⟨0, _⟩ => rfl | ⟨1, _⟩ => rfl | ⟨2, _⟩ => rfl)
  have e2 : ridx_main_v1 (ix3 e r h) k = ix3 e k h :=
    funext fun a => Fin.ext (by match a with | ⟨0, _⟩ => rfl | ⟨1, _⟩ => rfl | ⟨2, _⟩ => rfl)
  rw [e1, e2, tokens_at]

/-- The linear projection at (e, r, h), with its bias. -/
theorem lin_at (e : Fin 8) (r : Fin 2048) (h : Fin 4096) :
    val_main_v18 (F := Ideal) x0 x3 x4 (ix3 e r h)
      = (∑ k : Fin 1024, x0 (ix2 (tokenRow e r) k) * x3 (ix3 e k h)) + x4 (ix2 e h) := by
  rw [val_main_v18_apply, val_main_v15_apply, val_main_v17_apply, val_main_v16_apply]
  refine congrArg₂ (· + ·) (Finset.sum_congr rfl fun k _ => ?_) (congrArg x4 (funext fun a => Fin.ext ?_))
  · have e1 : lidx_main_v15 (ix3 e r h) k = ix3 e r k :=
      funext fun a => Fin.ext (by match a with | ⟨0, _⟩ => rfl | ⟨1, _⟩ => rfl | ⟨2, _⟩ => rfl)
    have e2 : ridx_main_v15 (ix3 e r h) k = ix3 e k h :=
      funext fun a => Fin.ext (by match a with | ⟨0, _⟩ => rfl | ⟨1, _⟩ => rfl | ⟨2, _⟩ => rfl)
    rw [e1, e2, tokens_at]
  · match a with | ⟨0, _⟩ => rfl | ⟨1, _⟩ => rfl

/-- The activated gate is the GELU of the gate projection, entry by entry. -/
theorem act_at (i : S8x2048x4096.Idx) :
    val_main_v14 (F := Ideal) x0 x2 i = gelu (val_main_v1 (F := Ideal) x0 x2 i) := by
  rw [val_main_v14_apply, val_main_v13_apply, val_main_v12_apply, val_main_cst_2_apply, val_main_v11_apply,
    val_main_v10_apply, val_main_cst_1_apply, val_main_v9_apply, val_main_v8_apply, val_main_v7_apply,
    val_main_cst_0_apply, val_main_v6_apply, val_main_v5_apply, val_main_v4_apply, val_main_cst_apply,
    val_main_v3_apply, val_main_v2_apply]
  exact gelu_cube_left _

/-- The reference's result before its final reshape, at (e, r, d). -/
theorem out_at (e : Fin 8) (r : Fin 2048) (d : Fin 1024) :
    val_main_v23 (F := Ideal) x0 x2 x3 x4 x5 x6 (ix3 e r d) = expertOut x0 x2 x3 x4 x5 x6 e r d := by
  rw [val_main_v23_apply, val_main_v20_apply, val_main_v22_apply, val_main_v21_apply]
  unfold expertOut ffn
  refine congrArg₂ (· + ·) (Finset.sum_congr rfl fun h _ => ?_) (congrArg x6 (funext fun a => Fin.ext ?_))
  · have e1 : lidx_main_v20 (ix3 e r d) h = ix3 e r h :=
      funext fun a => Fin.ext (by match a with | ⟨0, _⟩ => rfl | ⟨1, _⟩ => rfl | ⟨2, _⟩ => rfl)
    have e2 : ridx_main_v20 (ix3 e r d) h = ix3 e h d :=
      funext fun a => Fin.ext (by match a with | ⟨0, _⟩ => rfl | ⟨1, _⟩ => rfl | ⟨2, _⟩ => rfl)
    rw [e1, e2, val_main_v19_apply, act_at, gate_at, lin_at]
    rfl
  · match a with | ⟨0, _⟩ => rfl | ⟨1, _⟩ => rfl

/-- The reference's result before its final reshape is the experts' array. -/
theorem out_eq : val_main_v23 (F := Ideal) x0 x2 x3 x4 x5 x6 = expertArr x0 x2 x3 x4 x5 x6 := by
  funext i
  obtain ⟨e, r, d, rfl⟩ : ∃ (e : Fin 8) (r : Fin 2048) (d : Fin 1024), i = ix3 e r d := ⟨i 0, i 1, i 2, eq_ix3 i⟩
  exact out_at x0 x2 x3 x4 x5 x6 e r d

end Cert.ExpertFfn.Ref

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.KernelBlock.lean ====
/-
  What the kernel body computes from its loaded blocks, entry by entry.

  At a grid point the body holds a tile of 128 token rows `x` ([1, 128, 1024]), the expert's gate and linear weights
  ([1, 1024, 4096] each), the linear bias ([1, 1, 4096]), the output weights ([1, 4096, 1024]) and the output bias
  ([1, 1, 1024]). It multiplies the tile by both weight blocks into zero accumulators, applies the tanh GELU to the
  gate product, multiplies by the biased linear product, multiplies the result by the output weights into a zero
  accumulator and adds the output bias. A matrix product into a zero accumulator read at an entry is the plain sum over
  the contracted axis, the casts that drop or add a leading unit axis and the broadcast of a row down the rows only
  re-index, and the changes of float format are the identity on extended reals: entry (p, d) of the stored tile is the
  expert block of FfnSpec on row p of the tile.
-/
import proofs.«127453_j70033736728817_2_alg».proof.Proof.Gen.KernelIdeal.Skeleton
import proofs.«127453_j70033736728817_2_alg».proof.Proof.FfnSpec
import proofs.«127453_j70033736728817_2_alg».proof.Proof.LibRowOps
import Idealize.ShloMosaic.Lib.ValueLayout
import Idealize.ShloMosaic.Lib.Pipeline.Value
import Idealize.ShloMosaic.PureOps.Ideal.Laws

noncomputable section

namespace Cert.ExpertFfn.Block

open Cert.KernelIdeal Cert.KernelIdeal.Gen Idealize.ShloMosaic Idealize.ShloMosaic.ValueIdx Cert.ExpertFfn

variable (x0 : Vec Ideal S1x128x1024 .f32) (x1 x2 : Vec Ideal S1x1024x4096 .bf16) (x3 : Vec Ideal S1x1x4096 .f32)
  (x4 : Vec Ideal S1x4096x1024 .bf16) (x5 : Vec Ideal S1x1x1024 .f32)

/-- The token tile against one [1024, 4096] weight block, into a zero accumulator. -/
def proj (w : Vec Ideal S1x1024x4096 .bf16) : FVec Ideal S128x4096 .f32 :=
  matmul dot_S128x1024_S1024x4096_S128x4096_1_0_0_1_n_n none
    (truncf .bf16 (shapeCast S128x1024 x0 shapeCasts_S1x128x1024_S128x1024 : FVec Ideal S128x1024 .f32) bitsLt_bf16_f32)
    (shapeCast S1024x4096 w shapeCasts_S1x1024x4096_S1024x4096 : FVec Ideal S1024x4096 .bf16)
    (constant S128x4096 .f32 0x00000000#32)

/-- The tanh GELU of a [128, 4096] tile, as the body spells it. -/
def geluVec (g : FVec Ideal S128x4096 .f32) : FVec Ideal S128x4096 .f32 :=
  mulf g (mulf (broadcast S128x4096 (Scalar.ofBits .f32 0x3F000000#32))
    (addf (broadcast S128x4096 (Scalar.ofBits .f32 0x3F800000#32))
      (tanh (mulf (broadcast S128x4096 (Scalar.ofBits .f32 0x3F4C422A#32))
        (addf g (mulf (broadcast S128x4096 (Scalar.ofBits .f32 0x3D372713#32)) (mulf g (mulf g g))))))))

/-- The hidden tile: the activated gate product times the biased linear product. -/
def hidden : FVec Ideal S128x4096 .f32 :=
  mulf (geluVec (proj x0 x1))
    (addf (proj x0 x2)
      (broadcastTo S128x4096 (shapeCast S1x4096 x3 shapeCasts_S1x1x4096_S1x4096 : FVec Ideal S1x4096 .f32)
        broadcasts_S1x4096_S128x4096))

/-- The body's product of the hidden tile with the output weights is the payload the generated skeleton names. -/
theorem pay2_eq :
    k0_pay2 (F := Ideal) x0 x1 x2 x3 x4
      = matmul dot_S128x4096_S4096x1024_S128x1024_1_0_0_1_n_n none
          (truncf .bf16 (hidden x0 x1 x2 x3) bitsLt_bf16_f32)
          (shapeCast S4096x1024 x4 shapeCasts_S1x4096x1024_S4096x1024 : FVec Ideal S4096x1024 .bf16)
          (constant S128x1024 .f32 0x00000000#32) := rfl

/-- Entry (p, h) of a projection: row p of the tile against column h of the weights. -/
theorem proj_at (w : Vec Ideal S1x1024x4096 .bf16) (p : Fin 128) (h : Fin 4096) :
    proj x0 w (ix2 p h) = ∑ k : Fin 1024, x0 (ix3 (0 : Fin 1) p k) * w (ix3 (0 : Fin 1) k h) := by
  unfold proj
  refine (Cert.KernelBody.matmul_plain_zero_apply dot_S128x1024_S1024x4096_S128x4096_1_0_0_1_n_n_wf none _ _ p h).trans ?_
  refine Finset.sum_congr rfl fun k _ => ?_
  exact congrArg₂ (· * ·) (shapeCast_1ab_ab_apply x0 _ p k) (shapeCast_1ab_ab_apply w _ k h)

/-- The body's GELU acts entry by entry. -/
theorem geluVec_at (g : FVec Ideal S128x4096 .f32) (i : S128x4096.Idx) : geluVec g i = gelu (g i) := rfl

/-- Entry (p, h) of the hidden tile. -/
theorem hidden_at (p : Fin 128) (h : Fin 4096) :
    hidden x0 x1 x2 x3 (ix2 p h)
      = gelu (∑ k : Fin 1024, x0 (ix3 (0 : Fin 1) p k) * x1 (ix3 (0 : Fin 1) k h))
        * ((∑ k : Fin 1024, x0 (ix3 (0 : Fin 1) p k) * x2 (ix3 (0 : Fin 1) k h)) + x3 (ix3 (0 : Fin 1) (0 : Fin 1) h)) := by
  show geluVec (proj x0 x1) (ix2 p h) * (proj x0 x2 (ix2 p h) + broadcastTo S128x4096
    (shapeCast S1x4096 x3 shapeCasts_S1x1x4096_S1x4096 : FVec Ideal S1x4096 .f32) broadcasts_S1x4096_S128x4096 (ix2 p h)) = _
  rw [geluVec_at, proj_at, proj_at, broadcastTo_1b_ab_apply, shapeCast_1ab_ab_apply]

/-- Entry (p, d) of the product with the output weights. -/
theorem pay2_at (p : Fin 128) (d : Fin 1024) :
    k0_pay2 (F := Ideal) x0 x1 x2 x3 x4 (ix2 p d)
      = ∑ h : Fin 4096, gelu (∑ k : Fin 1024, x0 (ix3 (0 : Fin 1) p k) * x1 (ix3 (0 : Fin 1) k h))
          * ((∑ k : Fin 1024, x0 (ix3 (0 : Fin 1) p k) * x2 (ix3 (0 : Fin 1) k h)) + x3 (ix3 (0 : Fin 1) (0 : Fin 1) h))
          * x4 (ix3 (0 : Fin 1) h d) := by
  rw [pay2_eq]
  refine (Cert.KernelBody.matmul_plain_zero_apply dot_S128x4096_S4096x1024_S128x1024_1_0_0_1_n_n_wf none _ _ p d).trans ?_
  refine Finset.sum_congr rfl fun h _ => ?_
  exact congrArg₂ (· * ·) (hidden_at x0 x1 x2 x3 p h) (shapeCast_1ab_ab_apply x4 _ h d)

/-- The stored tile adds the output bias row to every row and puts the leading unit axis back. -/
theorem pay1_at (v30 : FVec Ideal S128x1024 .f32) (v32 : FVec Ideal S1x1024 .f32) (u : Fin 1) (p : Fin 128) (d : Fin 1024) :
    k0_pay1 (F := Ideal) v30 v32 (ix3 u p d) = v30 (ix2 p d) + v32 (ix2 (0 : Fin 1) d) := by
  unfold k0_pay1
  refine (shapeCast_ab_1ab_apply _ _ u p d).trans ?_
  exact congrArg (v30 (ix2 p d) + ·) (broadcastTo_1b_ab_apply v32 _ p d)

/-- The bias row without its leading unit axis. -/
theorem pay3_at (d : Fin 1024) : k0_pay3 (F := Ideal) x5 (ix2 (0 : Fin 1) d) = x5 (ix3 (0 : Fin 1) (0 : Fin 1) d) := by
  unfold k0_pay3
  exact shapeCast_1ab_ab_apply x5 _ (0 : Fin 1) d

/-- ENTRY (p, d) OF THE STORED TILE is the expert block on row p of the token tile. -/
theorem stored_at (u : Fin 1) (p : Fin 128) (d : Fin 1024) :
    k0_pay1 (F := Ideal) (k0_pay2 x0 x1 x2 x3 x4) (k0_pay3 x5) (ix3 u p d)
      = ffn (fun k : Fin 1024 => x0 (ix3 (0 : Fin 1) p k)) (fun (k : Fin 1024) (h : Fin 4096) => x1 (ix3 (0 : Fin 1) k h))
          (fun (k : Fin 1024) (h : Fin 4096) => x2 (ix3 (0 : Fin 1) k h)) (fun h : Fin 4096 => x3 (ix3 (0 : Fin 1) (0 : Fin 1) h))
          (fun h : Fin 4096 => x4 (ix3 (0 : Fin 1) h d)) (x5 (ix3 (0 : Fin 1) (0 : Fin 1) d)) := by
  rw [pay1_at, pay2_at, pay3_at]
  rfl

end Cert.ExpertFfn.Block

end
-- ==== Proof.KernelArr.lean ====
/-
  The kernel's output array, entry by entry.

  The grid has 128 points: point t works for expert t / 16 on the 128 token rows starting at row (t mod 16) · 128 of
  that expert's 2048. Before the region the host reshapes the token matrix to [8, 2048, 1024], narrows the three weight
  arrays' float format (the identity on extended reals) and gives the two biases a unit middle axis. So at point t the
  token window's block is rows e · 2048 + (t mod 16) · 128 + p of the token matrix, the weight and bias windows' blocks
  are expert e's slabs, and the body's stored tile (KernelBlock) is the expert block of FfnSpec at (e, (t mod 16) · 128 + p, d).
  The 128 output blocks tile the [8, 2048, 1024] array, so after the run the array is the experts' array.
-/
import proofs.«127453_j70033736728817_2_alg».proof.Proof.Gen.KernelIdeal.Frame
import proofs.«127453_j70033736728817_2_alg».proof.Proof.KernelBlock
import proofs.«127453_j70033736728817_2_alg».proof.Proof.FfnSpec
import Idealize.ShloMosaic.Lib.Pipeline.Value
import Idealize.ShloMosaic.Lib.StableHlo.Run
import Idealize.ShloMosaic.Lib.Tactic

noncomputable section

namespace Cert.ExpertFfn.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.ExpertFfn

variable (m : (ℓ : Loc nD τ sig) → Buf (Elt Ideal) ℓ) (ρ : Dev nD → PrngReg)

/-! ## The arrays as the region finds them -/

/-- The token window's array is the token matrix reshaped to [8, 2048, 1024]. -/
theorem V_tokens (c : Dev nD) :
    (V m c main_v0 : S8x2048x1024.Idx → EReal)
      = shapeCast S8x2048x1024 (m ((c : Thread nD τ).loc main_arg0)) shapeCasts_S16384x1024_S8x2048x1024 := by
  show StableHlo.after hostOps0 (fun b => m (c, b)) (Proc.devRef .tc main_v0) = _
  after_results
  rfl

/-- The gate weights' array: the argument, its format narrowed (no change on extended reals). -/
theorem V_gate (c : Dev nD) :
    (V m c main_v1 : S8x1024x4096.Idx → EReal) = (m ((c : Thread nD τ).loc main_arg2) : S8x1024x4096.Idx → EReal) := by
  show StableHlo.after hostOps0 (fun b => m (c, b)) (Proc.devRef .tc main_v1) = _
  after_results
  rfl

/-- The linear weights' array. -/
theorem V_lin (c : Dev nD) :
    (V m c main_v2 : S8x1024x4096.Idx → EReal) = (m ((c : Thread nD τ).loc main_arg3) : S8x1024x4096.Idx → EReal) := by
  show StableHlo.after hostOps0 (fun b => m (c, b)) (Proc.devRef .tc main_v2) = _
  after_results
  rfl

/-- The output weights' array. -/
theorem V_out (c : Dev nD) :
    (V m c main_v3 : S8x4096x1024.Idx → EReal) = (m ((c : Thread nD τ).loc main_arg5) : S8x4096x1024.Idx → EReal) := by
  show StableHlo.after hostOps0 (fun b => m (c, b)) (Proc.devRef .tc main_v3) = _
  after_results
  rfl

/-- The linear bias with a unit middle axis. -/
theorem V_linBias (c : Dev nD) :
    (V m c main_v4 : S8x1x4096.Idx → EReal)
      = shapeCast S8x1x4096 (m ((c : Thread nD τ).loc main_arg4)) shapeCasts_S8x4096_S8x1x4096 := by
  show StableHlo.after hostOps0 (fun b => m (c, b)) (Proc.devRef .tc main_v4) = _
  after_results
  rfl

/-- The output bias with a unit middle axis. -/
theorem V_outBias (c : Dev nD) :
    (V m c main_v5 : S8x1x1024.Idx → EReal)
      = shapeCast S8x1x1024 (m ((c : Thread nD τ).loc main_arg6)) shapeCasts_S8x1024_S8x1x1024 := by
  show StableHlo.after hostOps0 (fun b => m (c, b)) (Proc.devRef .tc main_v5) = _
  after_results
  rfl

/-! ## The index maps over the grid, and a point's expert and rows -/

theorem idx_tokens : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)
theorem idx_gate : ∀ t : Fin cfg0.N, win0_1.index t (0 : Fin 3) = t.val / 16 ∧ win0_1.index t (1 : Fin 3) = 0
    ∧ win0_1.index t (2 : Fin 3) = 0 :=
  (by decide +kernel : ∀ t : Fin grid0.N, _)
theorem idx_lin : ∀ t : Fin cfg0.N, win0_2.index t (0 : Fin 3) = t.val / 16 ∧ win0_2.index t (1 : Fin 3) = 0
    ∧ win0_2.index t (2 : Fin 3) = 0 :=
  (by decide +kernel : ∀ t : Fin grid0.N, _)
theorem idx_linBias : ∀ t : Fin cfg0.N, win0_3.index t (0 : Fin 3) = t.val / 16 ∧ win0_3.index t (1 : Fin 3) = 0
    ∧ win0_3.index t (2 : Fin 3) = 0 :=
  (by decide +kernel : ∀ t : Fin grid0.N, _)
theorem idx_out : ∀ t : Fin cfg0.N, win0_4.index t (0 : Fin 3) = t.val / 16 ∧ win0_4.index t (1 : Fin 3) = 0
    ∧ win0_4.index t (2 : Fin 3) = 0 :=
  (by decide +kernel : ∀ t : Fin grid0.N, _)
theorem idx_outBias : ∀ t : Fin cfg0.N, win0_5.index t (0 : Fin 3) = t.val / 16 ∧ win0_5.index t (1 : Fin 3) = 0
    ∧ win0_5.index t (2 : Fin 3) = 0 :=
  (by decide +kernel : ∀ t : Fin grid0.N, _)
theorem idx_result : ∀ t : Fin cfg0.N, win0_6.index t (0 : Fin 3) = t.val / 16 ∧ win0_6.index t (1 : Fin 3) = t.val % 16
    ∧ win0_6.index t (2 : Fin 3) = 0 :=
  (by decide +kernel : ∀ t : Fin grid0.N, _)

theorem point_lt (t : Fin cfg0.N) : t.val < 128 := by
  have h := t.isLt
  have hN : cfg0.N = 128 := N_0
  omega

/-- The expert a grid point works for. -/
def expertOf (t : Fin cfg0.N) : Fin 8 := ⟨t.val / 16, by have := point_lt t; omega⟩
/-- Row p of the point's tile among its expert's 2048 token rows. -/
def rowOf (t : Fin cfg0.N) (p : Fin 128) : Fin 2048 := ⟨t.val % 16 * 128 + p.val, by have := p.isLt; omega⟩

/-! ## The windows' blocks at a point, read off the argument arrays -/

/-- The token tile at point t: rows of the token matrix. -/
theorem tile_at (c : Dev nD) (t : Fin cfg0.N) (u : Fin 1) (p : Fin 128) (k : Fin 1024) :
    (iblk m c 0 t : Vec Ideal S1x128x1024 .f32) (ix3 u p k)
      = (m ((c : Thread nD τ).loc main_arg0) : S16384x1024.Idx → EReal) (ix2 (tokenRow (expertOf t) (rowOf t p)) k) := by
  obtain ⟨h0, h1, h2⟩ := idx_tokens t
  have hu : u.val = 0 := by omega
  unfold iblk
  rw [View.read_apply]
  show V m c main_v0 (((cfg0.win 0).blk t).view.emb (ix3 u p k)) = _
  refine (congrFun (V_tokens m c) _).trans ?_
  refine shapeCast_apply (s := S16384x1024) (t := S8x2048x1024)
    (m ((c : Thread nD τ).loc main_arg0) : S16384x1024.Idx → EReal) shapeCasts_S16384x1024_S8x2048x1024 _ _ ?_
  rw [Shape.rowMajor_val_two, Shape.rowMajor_val_three]
  show (t.val / 16 * 2048 + (t.val % 16 * 128 + p.val)) * 1024 + k.val
    = ((win0_0.index t (0 : Fin 3) * 1 + 1 * u.val) * 2048 + (win0_0.index t (1 : Fin 3) * 128 + 1 * p.val)) * 1024
      + (win0_0.index t (2 : Fin 3) * 1024 + 1 * k.val)
  rw [h0, h1, h2, hu]
  omega

/-- The gate weights' block at point t: the expert's slab. -/
theorem gateBlk_at (c : Dev nD) (t : Fin cfg0.N) (u : Fin 1) (k : Fin 1024) (h : Fin 4096) :
    (iblk m c 1 t : Vec Ideal S1x1024x4096 .bf16) (ix3 u k h)
      = (m ((c : Thread nD τ).loc main_arg2) : S8x1024x4096.Idx → EReal) (ix3 (expertOf t) k h) := by
  obtain ⟨h0, h1, h2⟩ := idx_gate t
  have hu : u.val = 0 := by omega
  unfold iblk
  rw [View.read_apply]
  show V m c main_v1 (((cfg0.win 1).blk t).view.emb (ix3 u k h)) = _
  refine (congrFun (V_gate m c) _).trans ?_
  refine congrArg (m ((c : Thread nD τ).loc main_arg2) : S8x1024x4096.Idx → EReal) (funext fun a => Fin.ext ?_)
  match a with
  | ⟨0, _⟩ => show win0_1.index t (0 : Fin 3) * 1 + 1 * u.val = t.val / 16; rw [h0, hu]; omega
  | ⟨1, _⟩ => show win0_1.index t (1 : Fin 3) * 1024 + 1 * k.val = k.val; rw [h1]; omega
  | ⟨2, _⟩ => show win0_1.index t (2 : Fin 3) * 4096 + 1 * h.val = h.val; rw [h2]; omega

/-- The linear weights' block at point t. -/
theorem linBlk_at (c : Dev nD) (t : Fin cfg0.N) (u : Fin 1) (k : Fin 1024) (h : Fin 4096) :
    (iblk m c 2 t : Vec Ideal S1x1024x4096 .bf16) (ix3 u k h)
      = (m ((c : Thread nD τ).loc main_arg3) : S8x1024x4096.Idx → EReal) (ix3 (expertOf t) k h) := by
  obtain ⟨h0, h1, h2⟩ := idx_lin t
  have hu : u.val = 0 := by omega
  unfold iblk
  rw [View.read_apply]
  show V m c main_v2 (((cfg0.win 2).blk t).view.emb (ix3 u k h)) = _
  refine (congrFun (V_lin m c) _).trans ?_
  refine congrArg (m ((c : Thread nD τ).loc main_arg3) : S8x1024x4096.Idx → EReal) (funext fun a => Fin.ext ?_)
  match a with
  | ⟨0, _⟩ => show win0_2.index t (0 : Fin 3) * 1 + 1 * u.val = t.val / 16; rw [h0, hu]; omega
  | ⟨1, _⟩ => show win0_2.index t (1 : Fin 3) * 1024 + 1 * k.val = k.val; rw [h1]; omega
  | ⟨2, _⟩ => show win0_2.index t (2 : Fin 3) * 4096 + 1 * h.val = h.val; rw [h2]; omega

/-- The linear bias's block at point t: the expert's row. -/
theorem linBiasBlk_at (c : Dev nD) (t : Fin cfg0.N) (u u' : Fin 1) (h : Fin 4096) :
    (iblk m c 3 t : Vec Ideal S1x1x4096 .f32) (ix3 u u' h)
      = (m ((c : Thread nD τ).loc main_arg4) : S8x4096.Idx → EReal) (ix2 (expertOf t) h) := by
  obtain ⟨h0, h1, h2⟩ := idx_linBias t
  have hu : u.val = 0 := by omega
  have hu' : u'.val = 0 := by omega
  unfold iblk
  rw [View.read_apply]
  show V m c main_v4 (((cfg0.win 3).blk t).view.emb (ix3 u u' h)) = _
  refine (congrFun (V_linBias m c) _).trans ?_
  refine shapeCast_apply (s := S8x4096) (t := S8x1x4096)
    (m ((c : Thread nD τ).loc main_arg4) : S8x4096.Idx → EReal) shapeCasts_S8x4096_S8x1x4096 _ _ ?_
  rw [Shape.rowMajor_val_two, Shape.rowMajor_val_three]
  show t.val / 16 * 4096 + h.val
    = ((win0_3.index t (0 : Fin 3) * 1 + 1 * u.val) * 1 + (win0_3.index t (1 : Fin 3) * 1 + 1 * u'.val)) * 4096
      + (win0_3.index t (2 : Fin 3) * 4096 + 1 * h.val)
  rw [h0, h1, h2, hu, hu']
  omega

/-- The output weights' block at point t. -/
theorem outBlk_at (c : Dev nD) (t : Fin cfg0.N) (u : Fin 1) (h : Fin 4096) (d : Fin 1024) :
    (iblk m c 4 t : Vec Ideal S1x4096x1024 .bf16) (ix3 u h d)
      = (m ((c : Thread nD τ).loc main_arg5) : S8x4096x1024.Idx → EReal) (ix3 (expertOf t) h d) := by
  obtain ⟨h0, h1, h2⟩ := idx_out t
  have hu : u.val = 0 := by omega
  unfold iblk
  rw [View.read_apply]
  show V m c main_v3 (((cfg0.win 4).blk t).view.emb (ix3 u h d)) = _
  refine (congrFun (V_out m c) _).trans ?_
  refine congrArg (m ((c : Thread nD τ).loc main_arg5) : S8x4096x1024.Idx → EReal) (funext fun a => Fin.ext ?_)
  match a with
  | ⟨0, _⟩ => show win0_4.index t (0 : Fin 3) * 1 + 1 * u.val = t.val / 16; rw [h0, hu]; omega
  | ⟨1, _⟩ => show win0_4.index t (1 : Fin 3) * 4096 + 1 * h.val = h.val; rw [h1]; omega
  | ⟨2, _⟩ => show win0_4.index t (2 : Fin 3) * 1024 + 1 * d.val = d.val; rw [h2]; omega

/-- The output bias's block at point t: the expert's row. -/
theorem outBiasBlk_at (c : Dev nD) (t : Fin cfg0.N) (u u' : Fin 1) (d : Fin 1024) :
    (iblk m c 5 t : Vec Ideal S1x1x1024 .f32) (ix3 u u' d)
      = (m ((c : Thread nD τ).loc main_arg6) : S8x1024.Idx → EReal) (ix2 (expertOf t) d) := by
  obtain ⟨h0, h1, h2⟩ := idx_outBias t
  have hu : u.val = 0 := by omega
  have hu' : u'.val = 0 := by omega
  unfold iblk
  rw [View.read_apply]
  show V m c main_v5 (((cfg0.win 5).blk t).view.emb (ix3 u u' d)) = _
  refine (congrFun (V_outBias m c) _).trans ?_
  refine shapeCast_apply (s := S8x1024) (t := S8x1x1024)
    (m ((c : Thread nD τ).loc main_arg6) : S8x1024.Idx → EReal) shapeCasts_S8x1024_S8x1x1024 _ _ ?_
  rw [Shape.rowMajor_val_two, Shape.rowMajor_val_three]
  show t.val / 16 * 1024 + d.val
    = ((win0_5.index t (0 : Fin 3) * 1 + 1 * u.val) * 1 + (win0_5.index t (1 : Fin 3) * 1 + 1 * u'.val)) * 1024
      + (win0_5.index t (2 : Fin 3) * 1024 + 1 * d.val)
  rw [h0, h1, h2, hu, hu']
  omega

/-- Entry (p, d) of the output block at point t sits at (e, (t mod 16) · 128 + p, d) of the output array. -/
theorem result_emb (t : Fin cfg0.N) (u : Fin 1) (p : Fin 128) (d : Fin 1024) :
    ((cfg0.win 6).blk t).view.emb (ix3 u p d) = (ix3 (expertOf t) (rowOf t p) d : S8x2048x1024.Idx) := by
  obtain ⟨h0, h1, h2⟩ := idx_result t
  have hu : u.val = 0 := by omega
  funext a
  apply Fin.ext
  match a with
  | ⟨0, _⟩ => show win0_6.index t (0 : Fin 3) * 1 + 1 * u.val = t.val / 16; rw [h0, hu]; omega
  | ⟨1, _⟩ => show win0_6.index t (1 : Fin 3) * 128 + 1 * p.val = t.val % 16 * 128 + p.val; rw [h1]; omega
  | ⟨2, _⟩ => show win0_6.index t (2 : Fin 3) * 1024 + 1 * d.val = d.val; rw [h2]; omega

/-! ## What a point writes back, the cover, the array after the run -/

theorem zero_offsets : (![0, 0, 0] : Fin 3 → Nat) = fun _ => 0 := funext fun a => by fin_cases a <;> rfl

/-- Entry (p, d) of the output's staging buffer after the body is the expert block on row p of the input blocks: the
    body's one store covers the whole buffer and each load reads a whole block, so the buffer holds the stored tile. -/
theorem out_tile_at (x0 : Vec Ideal S1x128x1024 .f32) (x1 x2 : Vec Ideal S1x1024x4096 .bf16) (x3 : Vec Ideal S1x1x4096 .f32)
    (x4 : Vec Ideal S1x4096x1024 .bf16) (x5 : Vec Ideal S1x1x1024 .f32) (u : Fin 1) (p : Fin 128) (d : Fin 1024) :
    out0_6 (F := Ideal) x0 x1 x2 x3 x4 x5 (ix3 u p d)
      = ffn (fun k : Fin 1024 => x0 (ix3 (0 : Fin 1) p k)) (fun (k : Fin 1024) (h : Fin 4096) => x1 (ix3 (0 : Fin 1) k h))
          (fun (k : Fin 1024) (h : Fin 4096) => x2 (ix3 (0 : Fin 1) k h)) (fun h : Fin 4096 => x3 (ix3 (0 : Fin 1) (0 : Fin 1) h))
          (fun h : Fin 4096 => x4 (ix3 (0 : Fin 1) h d)) (x5 (ix3 (0 : Fin 1) (0 : Fin 1) d)) := by
  unfold out0_6
  rw [View.canon_unit_zero zero_offsets]
  simp only [View.ld_unit_zero (S := S1x128x1024) zero_offsets, View.ld_unit_zero (S := S1x1024x4096) zero_offsets,
    View.ld_unit_zero (S := S1x1x4096) zero_offsets, View.ld_unit_zero (S := S1x4096x1024) zero_offsets,
    View.ld_unit_zero (S := S1x1x1024) zero_offsets]
  exact Block.stored_at x0 x1 x2 x3 x4 x5 u p d

/-- The experts' array of the launch contents: what the output array ends holding. -/
abbrev result (c : Dev nD) : Buf (Elt Ideal) ((c : Thread nD τ).loc main_v6) :=
  expertArr (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))

/-- WHAT POINT t WRITES BACK is block t of the experts' array. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  funext y
  obtain ⟨u, p, d, rfl⟩ : ∃ (u : Fin 1) (p : Fin 128) (d : Fin 1024), y = ix3 u p d := ⟨y 0, y 1, y 2, eq_ix3 y⟩
  rw [View.read_apply]
  show out0_6 (iblk m c 0 t) (iblk m c 1 t) (iblk m c 2 t) (iblk m c 3 t) (iblk m c 4 t) (iblk m c 5 t) (ix3 u p d)
    = result m c (((cfg0.win 6).blk t).view.emb (ix3 u p d))
  rw [result_emb t u p d]
  refine (out_tile_at (iblk m c 0 t) (iblk m c 1 t) (iblk m c 2 t) (iblk m c 3 t) (iblk m c 4 t) (iblk m c 5 t) u p d).trans ?_
  have e0 : (fun k : Fin 1024 => (iblk m c 0 t : Vec Ideal S1x128x1024 .f32) (ix3 (0 : Fin 1) p k))
      = fun k : Fin 1024 => (m ((c : Thread nD τ).loc main_arg0) : S16384x1024.Idx → EReal) (ix2 (tokenRow (expertOf t) (rowOf t p)) k) :=
    funext fun k => tile_at m c t 0 p k
  have e1 : (fun (k : Fin 1024) (h : Fin 4096) => (iblk m c 1 t : Vec Ideal S1x1024x4096 .bf16) (ix3 (0 : Fin 1) k h))
      = fun (k : Fin 1024) (h : Fin 4096) => (m ((c : Thread nD τ).loc main_arg2) : S8x1024x4096.Idx → EReal) (ix3 (expertOf t) k h) :=
    funext fun k => funext fun h => gateBlk_at m c t 0 k h
  have e2 : (fun (k : Fin 1024) (h : Fin 4096) => (iblk m c 2 t : Vec Ideal S1x1024x4096 .bf16) (ix3 (0 : Fin 1) k h))
      = fun (k : Fin 1024) (h : Fin 4096) => (m ((c : Thread nD τ).loc main_arg3) : S8x1024x4096.Idx → EReal) (ix3 (expertOf t) k h) :=
    funext fun k => funext fun h => linBlk_at m c t 0 k h
  have e3 : (fun h : Fin 4096 => (iblk m c 3 t : Vec Ideal S1x1x4096 .f32) (ix3 (0 : Fin 1) (0 : Fin 1) h))
      = fun h : Fin 4096 => (m ((c : Thread nD τ).loc main_arg4) : S8x4096.Idx → EReal) (ix2 (expertOf t) h) :=
    funext fun h => linBiasBlk_at m c t 0 0 h
  have e4 : (fun h : Fin 4096 => (iblk m c 4 t : Vec Ideal S1x4096x1024 .bf16) (ix3 (0 : Fin 1) h d))
      = fun h : Fin 4096 => (m ((c : Thread nD τ).loc main_arg5) : S8x4096x1024.Idx → EReal) (ix3 (expertOf t) h d) :=
    funext fun h => outBlk_at m c t 0 h d
  have e5 := outBiasBlk_at m c t 0 0 d
  exact congr (congr (congr (congr (congr (congrArg (ffn (ι := Fin 1024) (κ := Fin 4096)) e0) e1) e2) e3) e4) e5

/-- An index of the output array is in point t's block iff each coordinate is in the block's range on its axis. -/
theorem mem_blk (t : Fin cfg0.N) (i : S8x2048x1024.Idx) :
    i ∈ ((cfg0.win 6).blk t).view.set ↔ ∀ a : Fin 3, win0_6.index t a * S1x128x1024.size a ≤ (i a).val
      ∧ (i a).val < win0_6.index t a * S1x128x1024.size a + S1x128x1024.size a := by
  show i ∈ ((View.whole main_v6).slice (win0_6.rect t)).set ↔ _
  rw [View.set_slice_whole, Rect.mem_set_unit]
  exact Iff.rfl

/-- The output blocks tile the array: entry (e, r, d) is in the block of point e · 16 + r / 128. -/
theorem cover (i : S8x2048x1024.Idx) : ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 1024 := (i 2).isLt
  have hN : cfg0.N = 128 := N_0
  have hlt : (i 0).val * 16 + (i 1).val / 128 < cfg0.N := by omega
  obtain ⟨h0, h1, h2⟩ := idx_result ⟨(i 0).val * 16 + (i 1).val / 128, hlt⟩
  refine ⟨⟨(i 0).val * 16 + (i 1).val / 128, hlt⟩, flush0_6 _, ?_⟩
  rw [mem_blk]
  intro a
  match a with
  | ⟨0, _⟩ =>
    show win0_6.index ⟨(i 0).val * 16 + (i 1).val / 128, hlt⟩ (0 : Fin 3) * 1 ≤ (i 0).val
      ∧ (i 0).val < win0_6.index ⟨(i 0).val * 16 + (i 1).val / 128, hlt⟩ (0 : Fin 3) * 1 + 1
    rw [h0]; show ((i 0).val * 16 + (i 1).val / 128) / 16 * 1 ≤ (i 0).val ∧ (i 0).val < ((i 0).val * 16 + (i 1).val / 128) / 16 * 1 + 1
    omega
  | ⟨1, _⟩ =>
    show win0_6.index ⟨(i 0).val * 16 + (i 1).val / 128, hlt⟩ (1 : Fin 3) * 128 ≤ (i 1).val
      ∧ (i 1).val < win0_6.index ⟨(i 0).val * 16 + (i 1).val / 128, hlt⟩ (1 : Fin 3) * 128 + 128
    rw [h1]; show ((i 0).val * 16 + (i 1).val / 128) % 16 * 128 ≤ (i 1).val ∧ (i 1).val < ((i 0).val * 16 + (i 1).val / 128) % 16 * 128 + 128
    omega
  | ⟨2, _⟩ =>
    show win0_6.index ⟨(i 0).val * 16 + (i 1).val / 128, hlt⟩ (2 : Fin 3) * 1024 ≤ (i 2).val
      ∧ (i 2).val < win0_6.index ⟨(i 0).val * 16 + (i 1).val / 128, hlt⟩ (2 : Fin 3) * 1024 + 1024
    rw [h2]; omega

/-- THE OUTPUT ARRAY after the run is the experts' array. -/
theorem final (c : Dev nD) : (dats m 0 c).arrAt 6 cfg0.N = result m c :=
  (dats m 0 c).arrAt_eq_of_cover 6 (result m c) (fun t _ => flushed_eq m c t) cover

/-! ## The host's reshape after the region, and the run -/

/-- The program's result: the experts' array reshaped to [16384, 1024]. -/
theorem result_tail (c : Dev nD) :
    Pipeline.afterTail₀ cfgs (dats m) 0 (V0 m) [hostOps1] c main_v7
      = shapeCast S16384x1024 (result m c) shapeCasts_S8x2048x1024_S16384x1024 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = result m c := (Pipeline.withArrays_arr spec0 launch0.win.arr_inj c _ _ 6).trans (final m c)
  rw [hw]
  rfl

/-- The run, read: every weakly fair execution ends with the result at the experts' array reshaped to [16384, 1024]
    and the seven arguments as launched. -/
theorem run : θ_run defs (onTc (τ := τ) (main (F := Ideal))) ⟨m, fun _ => 0, ρ⟩ fun r => ∀ c : Dev nD,
      r.2.mem ((c.tc : Thread nD τ).loc main_v7) = shapeCast S16384x1024 (result m c) shapeCasts_S8x2048x1024_S16384x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v7 (Pipeline.mem_restRefs_of main_v7 (by decide) (by decide))).trans (result_tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.ExpertFfn.Kernel

end
-- ==== Proof.lean ====
/-
  A mixture-of-experts feed-forward layer with a gated tanh-GELU, the tokens sorted by expert in eight groups of 2048:
  for token row r of expert e and output column d,

      out[e · 2048 + r, d] = (∑ₕ gelu (∑ₖ x[e · 2048 + r, k] · w_gelu[e, k, h])
                                · ((∑ₖ x[e · 2048 + r, k] · w_lin[e, k, h]) + b_lin[e, h]) · w_o[e, h, d]) + b_o[e, d].

  The kernel computes it tile by tile (128 token rows per grid point, each expert's weight slabs staged whole, the
  matrix products into zero accumulators, the weights and the hidden tile narrowed to a shorter float format on the
  way); the reference computes it with three batched products over the whole arrays. Over the extended reals a
  change of float format is the identity and a matrix product read at an entry is a plain sum over the contracted
  axis, so both programs hold the displayed sum entry by entry (Proof/KernelArr.lean over Proof/KernelBlock.lean for
  the kernel, Proof/RefIsSpec.lean for the reference, both against Proof/FfnSpec.lean), and both reshape the same
  [8, 2048, 1024] array to [16384, 1024] at the end. The only algebra between the two sides is that the product of
  extended reals commutes: the kernel cubes the gate product as g · (g · g), the reference as (g · g) · g. No
  finiteness of the inputs is used.

  The frames of the two kernel programs are the generated ones; the reference's frame is its generated run with the
  result dropped. The idealization rewrote no operation, so there is nothing to preserve.
-/
import proofs.«127453_j70033736728817_2_alg».proof.Defs
import proofs.«127453_j70033736728817_2_alg».proof.Proof.Gen.Kernel
import proofs.«127453_j70033736728817_2_alg».proof.Proof.Gen.Kernel.Frame
import proofs.«127453_j70033736728817_2_alg».proof.Proof.Gen.KernelIdeal
import proofs.«127453_j70033736728817_2_alg».proof.Proof.Gen.KernelIdeal.Frame
import proofs.«127453_j70033736728817_2_alg».proof.Proof.Gen.ReferenceIdeal
import proofs.«127453_j70033736728817_2_alg».proof.Proof.Gen.ReferenceIdeal.Run
import proofs.«127453_j70033736728817_2_alg».proof.Proof.Gen.ReferenceIdeal.Read
import proofs.«127453_j70033736728817_2_alg».proof.Proof.Gen.Pre_finite_inputs
import proofs.«127453_j70033736728817_2_alg».proof.Proof.RefIsSpec
import proofs.«127453_j70033736728817_2_alg».proof.Proof.KernelArr
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the experts' array of their arguments reshaped to [16384, 1024]; the arguments agree. -/
theorem algebraic : Cert.algebraic_KernelIdeal_ReferenceIdeal := by
  intro m ρ m' ρ' _ hagree
  refine ⟨_, Cert.ExpertFfn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, _, a2, a3, a4, a5, a6⟩ := hagree c
  rw [Cert.ReferenceIdeal.Read.val_main_v24_eq]
  unfold Cert.ReferenceIdeal.Read.val_main_v24
  rw [Cert.ExpertFfn.Ref.out_eq, a0, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
